-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S100000x256 : Shape := ⟨2, ![100000, 256]⟩
abbrev S256x16 : Shape := ⟨2, ![256, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S16 .f32) (main_arg7 : FVec F S16x2 .f32) (main_arg8 : FVec F S2 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg7
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : IVec S3200000 32) (main_arg1 : IVec S3200000 32) (main_arg2 : FVec F S100000x256 .f32) (main_arg3 : FVec F S256x16 .f32) (main_arg4 : FVec F S16 .f32) (main_arg5 : FVec F S16x16 .f32) (main_arg6 : FVec F S16 .f32) (main_arg7 : FVec F S16x2 .f32) (main_arg8 : FVec F S2 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg3
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_v13 main_v16
-- ==== Kernel.lean ====
abbrev S3200000 : Shape := ⟨1, ![3200000]⟩
abbrev S100000x256 : Shape := ⟨2, ![100000, 256]⟩
abbrev S256x16 : Shape := ⟨2, ![256, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x16 : Shape := ⟨2, ![1, 16]⟩
abbrev S1x2 : Shape := ⟨2, ![1, 2]⟩
abbrev S100000x16 : Shape := ⟨2, ![100000, 16]⟩
abbrev S5000x256 : Shape := ⟨2, ![5000, 256]⟩
abbrev S5000x1 : Shape := ⟨2, ![5000, 1]⟩
abbrev S5000x16 : Shape := ⟨2, ![5000, 16]⟩
abbrev S3200000x16 : Shape := ⟨2, ![3200000, 16]⟩
abbrev S100000x2 : Shape := ⟨2, ![100000, 2]⟩
abbrev S5000x2 : Shape := ⟨2, ![5000, 2]⟩

abbrev nBuf : Space → Nat
  | .hbm => 64
  | .vmem => 28
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S100000x256, .f32⟩
  | .hbm, ⟨3, _⟩ => ⟨S256x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x2, .f32⟩
  | .hbm, ⟨8, _⟩ => ⟨S2, .f32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S1x16, .f32⟩
  | .hbm, ⟨32, _⟩ => ⟨S1x16, .f32⟩
  | .hbm, ⟨33, _⟩ => ⟨S1x2, .f32⟩
  | .hbm, ⟨34, _⟩ => ⟨S100000x16, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x16, .f32⟩
  | .hbm, ⟨44, _⟩ => ⟨S_, .f32⟩
  | .hbm, ⟨45, _⟩ => ⟨S100000x16, .f32⟩
  | .hbm, ⟨46, _⟩ => ⟨S3200000x1, .i32⟩
  | .hbm, ⟨47, _⟩ => ⟨S100000x16, .f32⟩
  | .hbm, ⟨48, _⟩ => ⟨S100000x16, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x16, .f32⟩
  | .hbm, ⟨58, _⟩ => ⟨S_, .f32⟩
  | .hbm, ⟨59, _⟩ => ⟨S100000x16, .f32⟩
  | .hbm, ⟨60, _⟩ => ⟨S3200000x1, .i32⟩
  | .hbm, ⟨61, _⟩ => ⟨S100000x16, .f32⟩
  | .hbm, ⟨62, _⟩ => ⟨S100000x16, .f32⟩
  | .hbm, ⟨63, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x1, .f32⟩
  | .local _ .vmem, ⟨13, _⟩ => ⟨S5000x1, .f32⟩
  | .local _ .vmem, ⟨14, _⟩ => ⟨S16x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x1, .f32⟩
  | .local _ .vmem, ⟨20, _⟩ => ⟨S5000x1, .f32⟩
  | .local _ .vmem, ⟨21, _⟩ => ⟨S1x16, .f32⟩
  | .local _ .vmem, ⟨22, _⟩ => ⟨S16x2, .f32⟩
  | .local _ .vmem, ⟨23, _⟩ => ⟨S1x2, .f32⟩
  | .local _ .vmem, ⟨24, _⟩ => ⟨S5000x16, .f32⟩
  | .local _ .vmem, ⟨25, _⟩ => ⟨S5000x16, .f32⟩
  | .local _ .vmem, ⟨26, _⟩ => ⟨S5000x2, .f32⟩
  | .local _ .vmem, ⟨27, _⟩ => ⟨S5000x2, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  shapeCasts_S16_S1x16 : S16.ShapeCasts S1x16
  shapeCasts_S2_S1x2 : S2.ShapeCasts S1x2
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S3200000x1_S3200000_n_0_0_1_wf : ScatterDims.WF S100000 S3200000x1 S3200000 [] [0] [0] 1
  dot_S5000x256_S256x16_S5000x16_1_0_0_1_n_n_wf : DotDims.WF S5000x256 S256x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x2.size a ≤ S16x2.size a
  hwx2_3 : ∀ i : grid2.Coords, EltTy.bits .f32 = 32 ∨ (Rect.block (s := S16x2) S16x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x2.size a ≤ S100000x2.size a
  hwx2_6 : ∀ i : grid2.Coords, EltTy.bits .f32 = 32 ∨ (Rect.block (s := S100000x2) S5000x2.size (cc2_transform_6 i) (hinb2_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_arg2) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38_0) S5000x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v38_1) S5000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S3200000 : Shape := ⟨1, ![3200000]⟩
abbrev S100000x256 : Shape := ⟨2, ![100000, 256]⟩
abbrev S256x16 : Shape := ⟨2, ![256, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩
abbrev S100000x2 : Shape := ⟨2, ![100000, 2]⟩
abbrev S1x2 : Shape := ⟨2, ![1, 2]⟩

abbrev nBuf : Space → Nat
  | .hbm => 99
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S100000x256, .f32⟩
  | .hbm, ⟨3, _⟩ => ⟨S256x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x2, .f32⟩
  | .hbm, ⟨8, _⟩ => ⟨S2, .f32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x256, .f32⟩
  | .hbm, ⟨30, _⟩ => ⟨S100000x256, .f32⟩
  | .hbm, ⟨31, _⟩ => ⟨S100000x16, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x16, .f32⟩
  | .hbm, ⟨41, _⟩ => ⟨S_, .f32⟩
  | .hbm, ⟨42, _⟩ => ⟨S100000x16, .f32⟩
  | .hbm, ⟨43, _⟩ => ⟨S3200000x1, .i32⟩
  | .hbm, ⟨44, _⟩ => ⟨S100000x16, .f32⟩
  | .hbm, ⟨45, _⟩ => ⟨S100000, .f32⟩
  | .hbm, ⟨46, _⟩ => ⟨S100000x1, .f32⟩
  | .hbm, ⟨47, _⟩ => ⟨S100000x16, .f32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x16, .f32⟩
  | .hbm, ⟨52, _⟩ => ⟨S_, .f32⟩
  | .hbm, ⟨53, _⟩ => ⟨S3200000, .f32⟩
  | .hbm, ⟨54, _⟩ => ⟨S_, .f32⟩
  | .hbm, ⟨55, _⟩ => ⟨S100000, .f32⟩
  | .hbm, ⟨56, _⟩ => ⟨S3200000x1, .i32⟩
  | .hbm, ⟨57, _⟩ => ⟨S100000, .f32⟩
  | .hbm, ⟨58, _⟩ => ⟨S_, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S3200000x1, .i32⟩
  | .hbm, ⟨65, _⟩ => ⟨S100000, .f32⟩
  | .hbm, ⟨66, _⟩ => ⟨S_, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x16, .f32⟩
  | .hbm, ⟨73, _⟩ => ⟨S100000x16, .f32⟩
  | .hbm, ⟨74, _⟩ => ⟨S100000x16, .f32⟩
  | .hbm, ⟨75, _⟩ => ⟨S_, .i32⟩
  | .hbm, ⟨76, _⟩ => ⟨S3200000, .i32⟩
  | .hbm, ⟨77, _⟩ => ⟨S3200000, .i1⟩
  | .hbm, ⟨78, _⟩ => ⟨S_, .i32⟩
  | .hbm, ⟨79, _⟩ => ⟨S3200000, .i32⟩
  | .hbm, ⟨80, _⟩ => ⟨S3200000, .i32⟩
  | .hbm, ⟨81, _⟩ => ⟨S3200000, .i32⟩
  | .hbm, ⟨82, _⟩ => ⟨S3200000x1, .i32⟩
  | .hbm, ⟨83, _⟩ => ⟨S3200000x16, .f32⟩
  | .hbm, ⟨84, _⟩ => ⟨S_, .f32⟩
  | .hbm, ⟨85, _⟩ => ⟨S100000x16, .f32⟩
  | .hbm, ⟨86, _⟩ => ⟨S3200000x1, .i32⟩
  | .hbm, ⟨87, _⟩ => ⟨S100000x16, .f32⟩
  | .hbm, ⟨88, _⟩ => ⟨S100000, .f32⟩
  | .hbm, ⟨89, _⟩ => ⟨S100000x1, .f32⟩
  | .hbm, ⟨90, _⟩ => ⟨S100000x16, .f32⟩
  | .hbm, ⟨91, _⟩ => ⟨S100000x16, .f32⟩
  | .hbm, ⟨92, _⟩ => ⟨S1x16, .f32⟩
  | .hbm, ⟨93, _⟩ => ⟨S100000x16, .f32⟩
  | .hbm, ⟨94, _⟩ => ⟨S100000x16, .f32⟩
  | .hbm, ⟨95, _⟩ => ⟨S100000x2, .f32⟩
  | .hbm, ⟨96, _⟩ => ⟨S1x2, .f32⟩
  | .hbm, ⟨97, _⟩ => ⟨S100000x2, .f32⟩
  | .hbm, ⟨98, _⟩ => ⟨S100000x2, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_call2_v0 : Ref sig .tc := ⟨.hbm, 59, rfl⟩
abbrev main_call2_v1 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_call3_v0 : Ref sig .tc := ⟨.hbm, 67, rfl⟩
abbrev main_call3_v1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3200000x1_S3200000_n_0_0_1_wf : ScatterDims.WF S100000 S3200000x1 S3200000 [] [0] [0] 1
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x2_S100000x2_1_0_0_1_n_n_wf : DotDims.WF S100000x16 S16x2 S100000x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.KernelRun.lean ====
/-
  The kernel program's run with every buffer named at the end.

  The program is ten segments: five stretches of host operations (the two degree vectors and their inverse square
  roots, the bias rows), the first region, the first gather and scatter-add over the edges, the second region, the
  second gather and scatter-add, the third region. Every weakly fair execution terminates, and each buffer that
  outlives the regions ends at the contents the fold through those ten segments gives it — among them the two results.
-/
import proofs.«128827_j72043781423170_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives the
    regions at the contents the fold through the ten segments leaves in it. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Whole

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Body0.lean ====
/-
  The first kernel body at an entry, on the extended reals: the feature block scaled row by row and multiplied
  into the weight matrix. Entry (p, q) of the stored block is the sum over k of (x(p, k) · s(p)) · w(k, q); the two
  changes of float format are the identity there, and the accumulator starts from zero.
-/
import proofs.«128827_j72043781423170_1_alg».proof.Proof.Gen.KernelIdeal.Skeleton
import proofs.«128827_j72043781423170_1_alg».proof.Proof.LibPlainMatmul
import proofs.«128827_j72043781423170_1_alg».proof.Proof.LibKeepdims
import Idealize.ShloMosaic.Lib.ValueIdx
import Idealize.ShloMosaic.Lib.Pipeline.Value

noncomputable section

open scoped BigOperators

namespace Cert.KernelIdeal.Body

open Idealize.ShloMosaic Idealize.ShloMosaic.ValueIdx Cert.KernelIdeal Cert.KernelIdeal.Gen

/-- Entry (p, q) of the first body's stored block: the row p of the feature block, scaled by the row's factor, against
    column q of the weights. -/
theorem pay0_at (x0 : Vec Ideal S5000x256 .f32) (x1 : Vec Ideal S5000x1 .f32) (x2 : Vec Ideal S256x16 .f32)
    (p : Fin 5000) (q : Fin 16) :
    k0_pay1 (F := Ideal) x0 x1 x2 (ix2 p q) = ∑ k : Fin 256, (x0 (ix2 p k) * x1 (ix2 p (0 : Fin 1))) * x2 (ix2 k q) := by
  unfold k0_pay1
  refine (Cert.LibPlainMatmul.matmul_zero_apply none _ _ p q).trans ?_
  refine Finset.sum_congr rfl fun k _ => ?_
  rw [truncf_apply, truncf_apply, mulf_apply, Cert.LibKeepdims.broadcastTo_a1_ab_apply, shapeCast_self]

end Cert.KernelIdeal.Body

end
-- ==== Proof.Region0.lean ====
/-
  The first kernel region as one function of the arrays it reads.

  The node axis is cut into twenty blocks of 5000 rows; at block t the body reads rows 5000·t … 5000·t + 4999 of the
  features and of the out-degree factors, and the whole weight matrix, and writes the same rows of the result. Row r of
  the result therefore depends on row r of the inputs alone:
      H(r, q) = Σₖ (X(r, k) · s(r)) · W(k, q),
  and the twenty blocks cover the array, so after the region the whole result array is H.
-/
import proofs.«128827_j72043781423170_1_alg».proof.Proof.Gen.KernelIdeal.Frame
import proofs.«128827_j72043781423170_1_alg».proof.Proof.Body0
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The unit rectangle's origin is the zero offset. -/
theorem origin2 : (![0, 0] : Fin 2 → Nat) = fun _ => 0 := funext fun a => by fin_cases a <;> rfl

/-- Scaled rows against a weight matrix: H(r, q) = Σₖ (X(r, k) · s(r)) · W(k, q). -/
def scaledDense (X : Vec Ideal S100000x256 .f32) (s : Vec Ideal S100000x1 .f32) (W : Vec Ideal S256x16 .f32) :
    Vec Ideal S100000x16 .f32 :=
  fun i => ∑ k : Fin 256, (X (ix2 (i 0) k) * s (ix2 (i 0) (0 : Fin 1))) * W (ix2 k (i 1))

variable (V : (c : Dev nD) → (b : Ref sig .tc) → Buf (Elt Ideal) ((c : Thread nD τ).loc b))

/-- The printed index maps over the twenty points: block t of the row-blocked windows is block row t, the weight
    window is always its one block. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the arrays the region finds. -/
theorem flushed0 (c : Dev nD) (t : Fin cfg0.N) :
    (dat0 V c).flushed 3 t = ((cfg0.win 3).blk t).view.read (Elt Ideal)
      (scaledDense (V c main_arg2) (V c main_v10) (V c main_arg3)) := by
  show (cfg0.win 3).cut (grid0.coords t) ((dat0 V c).after 3 t) = _
  rw [after0_3]
  unfold out0_3
  rw [View.canon_unit_zero origin2]
  simp only [View.ld_unit_zero (S := S5000x256) origin2, View.ld_unit_zero (S := S5000x1) origin2,
    View.ld_unit_zero (S := S256x16) origin2]
  obtain ⟨e00, e01, e10, e11, e20, e21, e30, e31⟩ := index_facts0 t
  funext j
  show k0_pay1 (F := Ideal) (iblk0 V c 0 t) (iblk0 V c 1 t) (iblk0 V c 2 t) j
    = scaledDense (V c main_arg2) (V c main_v10) (V c main_arg3) (((cfg0.win 3).blk t).view.emb j)
  refine (congrArg (k0_pay1 (F := Ideal) (iblk0 V c 0 t) (iblk0 V c 1 t) (iblk0 V c 2 t))
    (eq_ix2 (n0 := 5000) (n1 := 16) j)).trans ?_
  refine (Body.pay0_at _ _ _ (j 0) (j 1)).trans ?_
  unfold scaledDense
  refine Finset.sum_congr rfl fun k _ => ?_
  have hj0 : (j 0).val < 5000 := (j 0).isLt
  have hj1 : (j 1).val < 16 := (j 1).isLt
  have a0 : iblk0 V c 0 t (ix2 (j 0) k) = V c main_arg2 (ix2 ((((cfg0.win 3).blk t).view.emb j) 0) k) := by
    show V c main_arg2 (((cfg0.win 0).blk t).view.emb (ix2 (j 0) k)) = _
    refine congrArg (V c main_arg2) (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 256 + 1 * k.val = k.val
      omega
  have a1 : iblk0 V c 1 t (ix2 (j 0) (0 : Fin 1)) = V c main_v10 (ix2 ((((cfg0.win 3).blk t).view.emb j) 0) (0 : Fin 1)) := by
    show V c main_v10 (((cfg0.win 1).blk t).view.emb (ix2 (j 0) (0 : Fin 1))) = _
    refine congrArg (V c main_v10) (funext fun a => Fin.ext ?_)
    match a with
    | ⟨0, _⟩ =>
      show win0_1.index t (0 : Fin 2) * 5000 + 1 * (j 0).val = win0_3.index t (0 : Fin 2) * 5000 + 1 * (j 0).val
      omega
    | ⟨1, _⟩ =>
      show win0_1.index t (1 : Fin 2) * 1 + 1 * 0 = 0
      omega
  have a2 : iblk0 V c 2 t (ix2 k (j 1)) = V c main_arg3 (ix2 k ((((cfg0.win 3).blk t).view.emb j) 1)) := by
    show V c main_arg3 (((cfg0.win 2).blk t).view.emb (ix2 k (j 1))) = _
    refine congrArg (V c main_arg3) (funext fun a => Fin.ext ?_)
    match a with
    | ⟨0, _⟩ =>
      show win0_2.index t (0 : Fin 2) * 256 + 1 * k.val = k.val
      omega
    | ⟨1, _⟩ =>
      show win0_2.index t (1 : Fin 2) * 16 + 1 * (j 1).val = win0_3.index t (1 : Fin 2) * 16 + 1 * (j 1).val
      omega
  rw [a0, a1, a2]

/-- An index of the result array lies in point t's block iff each coordinate lies in the block's range. -/
theorem mem_block0 (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v16).slice (win0_3.rect t)).set ↔ _
  rw [View.set_slice_whole, Rect.mem_set_unit]
  exact Iff.rfl

/-- Every row lies in the block of the point r / 5000. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : grid0.N = 20 := N_0
  have ht : (i 0).val / 5000 < grid0.N := by rw [hN]; omega
  obtain ⟨e00, e01, e10, e11, e20, e21, e30, e31⟩ := index_facts0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 16 ≤ (i 1).val
      ∧ (i 1).val < win0_3.index ⟨(i 0).val / 5000, ht⟩ (1 : Fin 2) * 16 + 16
    rw [e31]
    omega

/-- After the first region its result array is the scaled product of the arrays it found. -/
theorem array0 (c : Dev nD) :
    (dat0 V c).arrAt 3 cfg0.N = scaledDense (V c main_arg2) (V c main_v10) (V c main_arg3) :=
  (dat0 V c).arrAt_eq_of_cover 3 _ (fun t _ => flushed0 V c t) cover0

end Cert.KernelIdeal.Blocks

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.Body1.lean ====
/-
  The second and third kernel bodies at an entry, on the extended reals.

  The second body finishes one graph-convolution layer on a block of aggregated rows — each row scaled by its
  in-degree factor, the bias row added — then prepares the next layer: the row scaled by its out-degree factor and
  multiplied into the next weight matrix. The third body finishes the last layer the same way (that is the embedding
  it stores) and applies the linear head: the embedding times the head's weights plus the head's bias row.
  The changes of float format are the identity on the extended reals and every product accumulates from zero.
-/
import proofs.«128827_j72043781423170_1_alg».proof.Proof.Gen.KernelIdeal.Skeleton
import proofs.«128827_j72043781423170_1_alg».proof.Proof.LibPlainMatmul
import proofs.«128827_j72043781423170_1_alg».proof.Proof.LibKeepdims
import proofs.«128827_j72043781423170_1_alg».proof.Proof.LibBlockLayout
import Idealize.ShloMosaic.Lib.ValueIdx
import Idealize.ShloMosaic.Lib.Pipeline.Value

noncomputable section

open scoped BigOperators

namespace Cert.KernelIdeal.Body

open Idealize.ShloMosaic Idealize.ShloMosaic.ValueIdx Cert.KernelIdeal Cert.KernelIdeal.Gen

/-- Entry (p, q) of the second body's stored block: Σₖ ((a(p, k) · sᵢₙ(p) + b(k)) · sₒᵤₜ(p)) · w(k, q). -/
theorem pay1_at (v0 : Vec Ideal S5000x16 .f32) (v2 : Vec Ideal S5000x1 .f32) (v6 : Vec Ideal S1x16 .f32)
    (v10 : Vec Ideal S5000x1 .f32) (v15 : Vec Ideal S16x16 .f32) (p : Fin 5000) (q : Fin 16) :
    k1_pay1 (F := Ideal) v0 v2 v6 v10 v15 (ix2 p q)
      = ∑ k : Fin 16, ((v0 (ix2 p k) * v2 (ix2 p (0 : Fin 1)) + v6 (ix2 (0 : Fin 1) k)) * v10 (ix2 p (0 : Fin 1))) * v15 (ix2 k q) := by
  unfold k1_pay1
  refine (Cert.LibPlainMatmul.matmul_zero_apply none _ _ p q).trans ?_
  refine Finset.sum_congr rfl fun k _ => ?_
  rw [truncf_apply, truncf_apply, mulf_apply, addf_apply, mulf_apply, shapeCast_self,
    Cert.LibKeepdims.broadcastTo_a1_ab_apply, shapeCast_self, Cert.LibBlockLayout.rowBroadcast_at, shapeCast_self,
    Cert.LibKeepdims.broadcastTo_a1_ab_apply, shapeCast_self]

/-- Entry (p, q) of the embedding block the third body stores: a(p, q) · sᵢₙ(p) + b(q). -/
theorem pay2_emb_at (v0 : Vec Ideal S5000x16 .f32) (v2 : Vec Ideal S5000x1 .f32) (v6 : Vec Ideal S1x16 .f32)
    (p : Fin 5000) (q : Fin 16) :
    k2_pay1 (F := Ideal) v0 v2 v6 (ix2 p q) = v0 (ix2 p q) * v2 (ix2 p (0 : Fin 1)) + v6 (ix2 (0 : Fin 1) q) := by
  unfold k2_pay1
  rw [addf_apply, mulf_apply, shapeCast_self, Cert.LibKeepdims.broadcastTo_a1_ab_apply, shapeCast_self,
    Cert.LibBlockLayout.rowBroadcast_at, shapeCast_self]

/-- Entry (p, q) of the head's block: Σₖ emb(p, k) · w(k, q) + b(q), the embedding as stored beside it. -/
theorem pay2_head_at (v0 : Vec Ideal S5000x16 .f32) (v2 : Vec Ideal S5000x1 .f32) (v6 : Vec Ideal S1x16 .f32)
    (v12 : Vec Ideal S16x2 .f32) (v15 : Vec Ideal S1x2 .f32) (p : Fin 5000) (q : Fin 2) :
    k2_pay2 (F := Ideal) v0 v2 v6 v12 v15 (ix2 p q)
      = (∑ k : Fin 16, (v0 (ix2 p k) * v2 (ix2 p (0 : Fin 1)) + v6 (ix2 (0 : Fin 1) k)) * v12 (ix2 k q)) + v15 (ix2 (0 : Fin 1) q) := by
  unfold k2_pay2
  rw [addf_apply, Cert.LibBlockLayout.rowBroadcast_at, shapeCast_self]
  refine congrArg (· + v15 (ix2 (0 : Fin 1) q)) ?_
  refine (Cert.LibPlainMatmul.matmul_zero_apply none _ _ p q).trans ?_
  refine Finset.sum_congr rfl fun k _ => ?_
  rw [truncf_apply, truncf_apply, pay2_emb_at]

end Cert.KernelIdeal.Body

end
-- ==== Proof.Region1.lean ====
/-
  The second kernel region as one function of the arrays it reads.

  Again twenty blocks of 5000 rows. At block t the body reads the same rows of the aggregated features and of the two
  degree factors, the whole bias row and the whole weight matrix, and writes the same rows of the result:
      H(r, q) = Σₖ ((A(r, k) · sᵢₙ(r) + b(k)) · sₒᵤₜ(r)) · W(k, q).
  The blocks cover the array, so after the region the whole result array is H.
-/
import proofs.«128827_j72043781423170_1_alg».proof.Proof.Gen.KernelIdeal.Frame
import proofs.«128827_j72043781423170_1_alg».proof.Proof.Body1
import proofs.«128827_j72043781423170_1_alg».proof.Proof.Region0
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- One layer finished and the next prepared: H(r, q) = Σₖ ((A(r, k) · sᵢₙ(r) + b(k)) · sₒᵤₜ(r)) · W(k, q). -/
def layerThenDense (A : Vec Ideal S100000x16 .f32) (sin : Vec Ideal S100000x1 .f32) (b : Vec Ideal S1x16 .f32)
    (sout : Vec Ideal S100000x1 .f32) (W : Vec Ideal S16x16 .f32) : Vec Ideal S100000x16 .f32 :=
  fun i => ∑ k : Fin 16, ((A (ix2 (i 0) k) * sin (ix2 (i 0) (0 : Fin 1)) + b (ix2 (0 : Fin 1) k))
    * sout (ix2 (i 0) (0 : Fin 1))) * W (ix2 k (i 1))

variable (V : (c : Dev nD) → (b : Ref sig .tc) → Buf (Elt Ideal) ((c : Thread nD τ).loc b))

/-- The printed index maps over the twenty points: the row-blocked windows are at block row t, the bias row and the
    weight matrix always at their one block. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer function of the arrays the region finds. -/
theorem flushed1 (c : Dev nD) (t : Fin cfg1.N) :
    (dat1 V c).flushed 5 t = ((cfg1.win 5).blk t).view.read (Elt Ideal)
      (layerThenDense (V c main_v26) (V c main_v12) (V c main_v13) (V c main_v10) (V c main_arg5)) := by
  show (cfg1.win 5).cut (grid1.coords t) ((dat1 V c).after 5 t) = _
  rw [after1_5]
  unfold out1_5
  rw [View.canon_unit_zero origin2]
  simp only [View.ld_unit_zero (S := S5000x16) origin2, View.ld_unit_zero (S := S5000x1) origin2,
    View.ld_unit_zero (S := S1x16) origin2, View.ld_unit_zero (S := S16x16) origin2]
  obtain ⟨e00, e01, e10, e11, e20, e21, e30, e31, e40, e41, e50, e51⟩ := index_facts1 t
  funext j
  show k1_pay1 (F := Ideal) (iblk1 V c 0 t) (iblk1 V c 1 t) (iblk1 V c 2 t) (iblk1 V c 3 t) (iblk1 V c 4 t) j
    = layerThenDense (V c main_v26) (V c main_v12) (V c main_v13) (V c main_v10) (V c main_arg5)
        (((cfg1.win 5).blk t).view.emb j)
  refine (congrArg (k1_pay1 (F := Ideal) (iblk1 V c 0 t) (iblk1 V c 1 t) (iblk1 V c 2 t) (iblk1 V c 3 t) (iblk1 V c 4 t))
    (eq_ix2 (n0 := 5000) (n1 := 16) j)).trans ?_
  refine (Body.pay1_at _ _ _ _ _ (j 0) (j 1)).trans ?_
  unfold layerThenDense
  refine Finset.sum_congr rfl fun k _ => ?_
  have hj0 : (j 0).val < 5000 := (j 0).isLt
  have hj1 : (j 1).val < 16 := (j 1).isLt
  have a0 : iblk1 V c 0 t (ix2 (j 0) k) = V c main_v26 (ix2 ((((cfg1.win 5).blk t).view.emb j) 0) k) := by
    show V c main_v26 (((cfg1.win 0).blk t).view.emb (ix2 (j 0) k)) = _
    refine congrArg (V c main_v26) (funext fun a => Fin.ext ?_)
    match a with
    | ⟨0, _⟩ =>
      show win1_0.index t (0 : Fin 2) * 5000 + 1 * (j 0).val = win1_5.index t (0 : Fin 2) * 5000 + 1 * (j 0).val
      omega
    | ⟨1, _⟩ =>
      show win1_0.index t (1 : Fin 2) * 16 + 1 * k.val = k.val
      omega
  have a1 : iblk1 V c 1 t (ix2 (j 0) (0 : Fin 1)) = V c main_v12 (ix2 ((((cfg1.win 5).blk t).view.emb j) 0) (0 : Fin 1)) := by
    show V c main_v12 (((cfg1.win 1).blk t).view.emb (ix2 (j 0) (0 : Fin 1))) = _
    refine congrArg (V c main_v12) (funext fun a => Fin.ext ?_)
    match a with
    | ⟨0, _⟩ =>
      show win1_1.index t (0 : Fin 2) * 5000 + 1 * (j 0).val = win1_5.index t (0 : Fin 2) * 5000 + 1 * (j 0).val
      omega
    | ⟨1, _⟩ =>
      show win1_1.index t (1 : Fin 2) * 1 + 1 * 0 = 0
      omega
  have a2 : iblk1 V c 2 t (ix2 (0 : Fin 1) k) = V c main_v13 (ix2 (0 : Fin 1) k) := by
    show V c main_v13 (((cfg1.win 2).blk t).view.emb (ix2 (0 : Fin 1) k)) = _
    refine congrArg (V c main_v13) (funext fun a => Fin.ext ?_)
    match a with
    | ⟨0, _⟩ =>
      show win1_2.index t (0 : Fin 2) * 1 + 1 * 0 = 0
      omega
    | ⟨1, _⟩ =>
      show win1_2.index t (1 : Fin 2) * 16 + 1 * k.val = k.val
      omega
  have a3 : iblk1 V c 3 t (ix2 (j 0) (0 : Fin 1)) = V c main_v10 (ix2 ((((cfg1.win 5).blk t).view.emb j) 0) (0 : Fin 1)) := by
    show V c main_v10 (((cfg1.win 3).blk t).view.emb (ix2 (j 0) (0 : Fin 1))) = _
    refine congrArg (V c main_v10) (funext fun a => Fin.ext ?_)
    match a with
    | ⟨0, _⟩ =>
      show win1_3.index t (0 : Fin 2) * 5000 + 1 * (j 0).val = win1_5.index t (0 : Fin 2) * 5000 + 1 * (j 0).val
      omega
    | ⟨1, _⟩ =>
      show win1_3.index t (1 : Fin 2) * 1 + 1 * 0 = 0
      omega
  have a4 : iblk1 V c 4 t (ix2 k (j 1)) = V c main_arg5 (ix2 k ((((cfg1.win 5).blk t).view.emb j) 1)) := by
    show V c main_arg5 (((cfg1.win 4).blk t).view.emb (ix2 k (j 1))) = _
    refine congrArg (V c main_arg5) (funext fun a => Fin.ext ?_)
    match a with
    | ⟨0, _⟩ =>
      show win1_4.index t (0 : Fin 2) * 16 + 1 * k.val = k.val
      omega
    | ⟨1, _⟩ =>
      show win1_4.index t (1 : Fin 2) * 16 + 1 * (j 1).val = win1_5.index t (1 : Fin 2) * 16 + 1 * (j 1).val
      omega
  rw [a0, a1, a2, a3, a4]

/-- An index of the result array lies in point t's block iff each coordinate lies in the block's range. -/
theorem mem_block1 (t : Fin cfg1.N) (i : S100000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v27).slice (win1_5.rect t)).set ↔ _
  rw [View.set_slice_whole, Rect.mem_set_unit]
  exact Iff.rfl

/-- Every row lies in the block of the point r / 5000. -/
theorem cover1 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : grid1.N = 20 := N_1
  have ht : (i 0).val / 5000 < grid1.N := by rw [hN]; omega
  obtain ⟨e00, e01, e10, e11, e20, e21, e30, e31, e40, e41, e50, e51⟩ := index_facts1 ⟨(i 0).val / 5000, ht⟩
  refine ⟨⟨(i 0).val / 5000, ht⟩, flush1_5 _, ?_⟩
  rw [mem_block1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 16 ≤ (i 1).val
      ∧ (i 1).val < win1_5.index ⟨(i 0).val / 5000, ht⟩ (1 : Fin 2) * 16 + 16
    rw [e51]
    omega

/-- After the second region its result array is the layer function of the arrays it found. -/
theorem array1 (c : Dev nD) :
    (dat1 V c).arrAt 5 cfg1.N
      = layerThenDense (V c main_v26) (V c main_v12) (V c main_v13) (V c main_v10) (V c main_arg5) :=
  (dat1 V c).arrAt_eq_of_cover 5 _ (fun t _ => flushed1 V c t) cover1

end Cert.KernelIdeal.Blocks

end
-- ==== Proof.Region2.lean ====
/-
  The third kernel region as two functions of the arrays it reads.

  Twenty blocks of 5000 rows once more. At block t the body reads the same rows of the aggregated features and of the
  in-degree factors, the whole bias row, the head's whole weight matrix and bias row, and writes the same rows of its two
  results — the embedding and the head's output:
      E(r, q) = A(r, q) · sᵢₙ(r) + b(q),          O(r, q) = Σₖ E(r, k) · Wₗ(k, q) + bₗ(q).
  The blocks cover both arrays, so after the region the two result arrays are E and O.
-/
import proofs.«128827_j72043781423170_1_alg».proof.Proof.Gen.KernelIdeal.Frame
import proofs.«128827_j72043781423170_1_alg».proof.Proof.Body1
import proofs.«128827_j72043781423170_1_alg».proof.Proof.Region0
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A layer finished: E(r, q) = A(r, q) · sᵢₙ(r) + b(q). -/
def layerOut (A : Vec Ideal S100000x16 .f32) (sin : Vec Ideal S100000x1 .f32) (b : Vec Ideal S1x16 .f32) :
    Vec Ideal S100000x16 .f32 :=
  fun i => A (ix2 (i 0) (i 1)) * sin (ix2 (i 0) (0 : Fin 1)) + b (ix2 (0 : Fin 1) (i 1))

/-- The linear head on the finished layer: O(r, q) = Σₖ (A(r, k) · sᵢₙ(r) + b(k)) · Wₗ(k, q) + bₗ(q). -/
def headOut (A : Vec Ideal S100000x16 .f32) (sin : Vec Ideal S100000x1 .f32) (b : Vec Ideal S1x16 .f32)
    (Wl : Vec Ideal S16x2 .f32) (bl : Vec Ideal S1x2 .f32) : Vec Ideal S100000x2 .f32 :=
  fun i => (∑ k : Fin 16, (A (ix2 (i 0) k) * sin (ix2 (i 0) (0 : Fin 1)) + b (ix2 (0 : Fin 1) k)) * Wl (ix2 k (i 1)))
    + bl (ix2 (0 : Fin 1) (i 1))

variable (V : (c : Dev nD) → (b : Ref sig .tc) → Buf (Elt Ideal) ((c : Thread nD τ).loc b))

/-- The printed index maps over the twenty points: the row-blocked windows are at block row t, the bias rows and the
    head's weight matrix always at their one block. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point t writes back to the embedding is block t of the finished layer of the arrays the region finds. -/
theorem flushed2_emb (c : Dev nD) (t : Fin cfg2.N) :
    (dat2 V c).flushed 5 t = ((cfg2.win 5).blk t).view.read (Elt Ideal)
      (layerOut (V c main_v37) (V c main_v12) (V c main_v14)) := by
  show (cfg2.win 5).cut (grid2.coords t) ((dat2 V c).after 5 t) = _
  rw [after2_5]
  unfold out2_5
  rw [View.canon_unit_zero origin2]
  simp only [View.ld_unit_zero (S := S5000x16) origin2, View.ld_unit_zero (S := S5000x1) origin2,
    View.ld_unit_zero (S := S1x16) origin2]
  obtain ⟨e00, e01, e10, e11, e20, e21, e30, e31, e40, e41, e50, e51, e60, e61⟩ := index_facts2 t
  funext j
  show k2_pay1 (F := Ideal) (iblk2 V c 0 t) (iblk2 V c 1 t) (iblk2 V c 2 t) j
    = layerOut (V c main_v37) (V c main_v12) (V c main_v14) (((cfg2.win 5).blk t).view.emb j)
  refine (congrArg (k2_pay1 (F := Ideal) (iblk2 V c 0 t) (iblk2 V c 1 t) (iblk2 V c 2 t))
    (eq_ix2 (n0 := 5000) (n1 := 16) j)).trans ?_
  refine (Body.pay2_emb_at _ _ _ (j 0) (j 1)).trans ?_
  unfold layerOut
  have hj0 : (j 0).val < 5000 := (j 0).isLt
  have hj1 : (j 1).val < 16 := (j 1).isLt
  have a0 : iblk2 V c 0 t (ix2 (j 0) (j 1)) = V c main_v37 (ix2 ((((cfg2.win 5).blk t).view.emb j) 0) ((((cfg2.win 5).blk t).view.emb j) 1)) := by
    show V c main_v37 (((cfg2.win 0).blk t).view.emb (ix2 (j 0) (j 1))) = _
    refine congrArg (V c main_v37) (funext fun a => Fin.ext ?_)
    match a with
    | ⟨0, _⟩ =>
      show win2_0.index t (0 : Fin 2) * 5000 + 1 * (j 0).val = win2_5.index t (0 : Fin 2) * 5000 + 1 * (j 0).val
      omega
    | ⟨1, _⟩ =>
      show win2_0.index t (1 : Fin 2) * 16 + 1 * (j 1).val = win2_5.index t (1 : Fin 2) * 16 + 1 * (j 1).val
      omega
  have a1 : iblk2 V c 1 t (ix2 (j 0) (0 : Fin 1)) = V c main_v12 (ix2 ((((cfg2.win 5).blk t).view.emb j) 0) (0 : Fin 1)) := by
    show V c main_v12 (((cfg2.win 1).blk t).view.emb (ix2 (j 0) (0 : Fin 1))) = _
    refine congrArg (V c main_v12) (funext fun a => Fin.ext ?_)
    match a with
    | ⟨0, _⟩ =>
      show win2_1.index t (0 : Fin 2) * 5000 + 1 * (j 0).val = win2_5.index t (0 : Fin 2) * 5000 + 1 * (j 0).val
      omega
    | ⟨1, _⟩ =>
      show win2_1.index t (1 : Fin 2) * 1 + 1 * 0 = 0
      omega
  have a2 : iblk2 V c 2 t (ix2 (0 : Fin 1) (j 1)) = V c main_v14 (ix2 (0 : Fin 1) ((((cfg2.win 5).blk t).view.emb j) 1)) := by
    show V c main_v14 (((cfg2.win 2).blk t).view.emb (ix2 (0 : Fin 1) (j 1))) = _
    refine congrArg (V c main_v14) (funext fun a => Fin.ext ?_)
    match a with
    | ⟨0, _⟩ =>
      show win2_2.index t (0 : Fin 2) * 1 + 1 * 0 = 0
      omega
    | ⟨1, _⟩ =>
      show win2_2.index t (1 : Fin 2) * 16 + 1 * (j 1).val = win2_5.index t (1 : Fin 2) * 16 + 1 * (j 1).val
      omega
  rw [a0, a1, a2]

/-- What point t writes back to the head's output is block t of the head function of the arrays the region finds. -/
theorem flushed2_head (c : Dev nD) (t : Fin cfg2.N) :
    (dat2 V c).flushed 6 t = ((cfg2.win 6).blk t).view.read (Elt Ideal)
      (headOut (V c main_v37) (V c main_v12) (V c main_v14) (V c main_arg7) (V c main_v15)) := by
  show (cfg2.win 6).cut (grid2.coords t) ((dat2 V c).after 6 t) = _
  rw [after2_6]
  unfold out2_6
  rw [View.canon_unit_zero origin2]
  simp only [View.ld_unit_zero (S := S5000x16) origin2, View.ld_unit_zero (S := S5000x1) origin2,
    View.ld_unit_zero (S := S1x16) origin2, View.ld_unit_zero (S := S16x2) origin2, View.ld_unit_zero (S := S1x2) origin2]
  obtain ⟨e00, e01, e10, e11, e20, e21, e30, e31, e40, e41, e50, e51, e60, e61⟩ := index_facts2 t
  funext j
  show k2_pay2 (F := Ideal) (iblk2 V c 0 t) (iblk2 V c 1 t) (iblk2 V c 2 t) (iblk2 V c 3 t) (iblk2 V c 4 t) j
    = headOut (V c main_v37) (V c main_v12) (V c main_v14) (V c main_arg7) (V c main_v15)
        (((cfg2.win 6).blk t).view.emb j)
  refine (congrArg (k2_pay2 (F := Ideal) (iblk2 V c 0 t) (iblk2 V c 1 t) (iblk2 V c 2 t) (iblk2 V c 3 t) (iblk2 V c 4 t))
    (eq_ix2 (n0 := 5000) (n1 := 2) j)).trans ?_
  refine (Body.pay2_head_at _ _ _ _ _ (j 0) (j 1)).trans ?_
  unfold headOut
  have hj0 : (j 0).val < 5000 := (j 0).isLt
  have hj1 : (j 1).val < 2 := (j 1).isLt
  have a4 : iblk2 V c 4 t (ix2 (0 : Fin 1) (j 1)) = V c main_v15 (ix2 (0 : Fin 1) ((((cfg2.win 6).blk t).view.emb j) 1)) := by
    show V c main_v15 (((cfg2.win 4).blk t).view.emb (ix2 (0 : Fin 1) (j 1))) = _
    refine congrArg (V c main_v15) (funext fun a => Fin.ext ?_)
    match a with
    | ⟨0, _⟩ =>
      show win2_4.index t (0 : Fin 2) * 1 + 1 * 0 = 0
      omega
    | ⟨1, _⟩ =>
      show win2_4.index t (1 : Fin 2) * 2 + 1 * (j 1).val = win2_6.index t (1 : Fin 2) * 2 + 1 * (j 1).val
      omega
  rw [a4]
  refine congrArg (· + V c main_v15 (ix2 (0 : Fin 1) ((((cfg2.win 6).blk t).view.emb j) 1))) ?_
  refine Finset.sum_congr rfl fun k _ => ?_
  have a0 : iblk2 V c 0 t (ix2 (j 0) k) = V c main_v37 (ix2 ((((cfg2.win 6).blk t).view.emb j) 0) k) := by
    show V c main_v37 (((cfg2.win 0).blk t).view.emb (ix2 (j 0) k)) = _
    refine congrArg (V c main_v37) (funext fun a => Fin.ext ?_)
    match a with
    | ⟨0, _⟩ =>
      show win2_0.index t (0 : Fin 2) * 5000 + 1 * (j 0).val = win2_6.index t (0 : Fin 2) * 5000 + 1 * (j 0).val
      omega
    | ⟨1, _⟩ =>
      show win2_0.index t (1 : Fin 2) * 16 + 1 * k.val = k.val
      omega
  have a1 : iblk2 V c 1 t (ix2 (j 0) (0 : Fin 1)) = V c main_v12 (ix2 ((((cfg2.win 6).blk t).view.emb j) 0) (0 : Fin 1)) := by
    show V c main_v12 (((cfg2.win 1).blk t).view.emb (ix2 (j 0) (0 : Fin 1))) = _
    refine congrArg (V c main_v12) (funext fun a => Fin.ext ?_)
    match a with
    | ⟨0, _⟩ =>
      show win2_1.index t (0 : Fin 2) * 5000 + 1 * (j 0).val = win2_6.index t (0 : Fin 2) * 5000 + 1 * (j 0).val
      omega
    | ⟨1, _⟩ =>
      show win2_1.index t (1 : Fin 2) * 1 + 1 * 0 = 0
      omega
  have a2 : iblk2 V c 2 t (ix2 (0 : Fin 1) k) = V c main_v14 (ix2 (0 : Fin 1) k) := by
    show V c main_v14 (((cfg2.win 2).blk t).view.emb (ix2 (0 : Fin 1) k)) = _
    refine congrArg (V c main_v14) (funext fun a => Fin.ext ?_)
    match a with
    | ⟨0, _⟩ =>
      show win2_2.index t (0 : Fin 2) * 1 + 1 * 0 = 0
      omega
    | ⟨1, _⟩ =>
      show win2_2.index t (1 : Fin 2) * 16 + 1 * k.val = k.val
      omega
  have a3 : iblk2 V c 3 t (ix2 k (j 1)) = V c main_arg7 (ix2 k ((((cfg2.win 6).blk t).view.emb j) 1)) := by
    show V c main_arg7 (((cfg2.win 3).blk t).view.emb (ix2 k (j 1))) = _
    refine congrArg (V c main_arg7) (funext fun a => Fin.ext ?_)
    match a with
    | ⟨0, _⟩ =>
      show win2_3.index t (0 : Fin 2) * 16 + 1 * k.val = k.val
      omega
    | ⟨1, _⟩ =>
      show win2_3.index t (1 : Fin 2) * 2 + 1 * (j 1).val = win2_6.index t (1 : Fin 2) * 2 + 1 * (j 1).val
      omega
  rw [a0, a1, a2, a3]

/-- An index of the embedding array lies in point t's block iff each coordinate lies in the block's range. -/
theorem mem_block2_emb (t : Fin cfg2.N) (i : S100000x16.Idx) :
    i ∈ ((cfg2.win 5).blk t).view.set ↔ ∀ a : Fin 2, win2_5.index t a * S5000x16.size a ≤ (i a).val
      ∧ (i a).val < win2_5.index t a * S5000x16.size a + S5000x16.size a := by
  show i ∈ ((View.whole main_v38_0).slice (win2_5.rect t)).set ↔ _
  rw [View.set_slice_whole, Rect.mem_set_unit]
  exact Iff.rfl

/-- The same for the head's output array. -/
theorem mem_block2_head (t : Fin cfg2.N) (i : S100000x2.Idx) :
    i ∈ ((cfg2.win 6).blk t).view.set ↔ ∀ a : Fin 2, win2_6.index t a * S5000x2.size a ≤ (i a).val
      ∧ (i a).val < win2_6.index t a * S5000x2.size a + S5000x2.size a := by
  show i ∈ ((View.whole main_v38_1).slice (win2_6.rect t)).set ↔ _
  rw [View.set_slice_whole, Rect.mem_set_unit]
  exact Iff.rfl

/-- Every row of the embedding lies in the block of the point r / 5000. -/
theorem cover2_emb (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : grid2.N = 20 := N_2
  have ht : (i 0).val / 5000 < grid2.N := by rw [hN]; omega
  obtain ⟨e00, e01, e10, e11, e20, e21, e30, e31, e40, e41, e50, e51, e60, e61⟩ := index_facts2 ⟨(i 0).val / 5000, ht⟩
  refine ⟨⟨(i 0).val / 5000, ht⟩, flush2_5 _, ?_⟩
  rw [mem_block2_emb]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 16 ≤ (i 1).val
      ∧ (i 1).val < win2_5.index ⟨(i 0).val / 5000, ht⟩ (1 : Fin 2) * 16 + 16
    rw [e51]
    omega

/-- Every row of the head's output lies in the block of the point r / 5000. -/
theorem cover2_head (i : S100000x2.Idx) :
    ∃ t : Fin cfg2.N, (cfg2.win 6).flush t = true ∧ i ∈ ((cfg2.win 6).blk t).view.set := by
  have hi0 : (i 0).val < 100000 := (i 0).isLt
  have hi1 : (i 1).val < 2 := (i 1).isLt
  have hN : grid2.N = 20 := N_2
  have ht : (i 0).val / 5000 < grid2.N := by rw [hN]; omega
  obtain ⟨e00, e01, e10, e11, e20, e21, e30, e31, e40, e41, e50, e51, e60, e61⟩ := index_facts2 ⟨(i 0).val / 5000, ht⟩
  refine ⟨⟨(i 0).val / 5000, ht⟩, flush2_6 _, ?_⟩
  rw [mem_block2_head]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win2_6.index ⟨(i 0).val / 5000, ht⟩ (1 : Fin 2) * 2 ≤ (i 1).val
      ∧ (i 1).val < win2_6.index ⟨(i 0).val / 5000, ht⟩ (1 : Fin 2) * 2 + 2
    rw [e61]
    omega

/-- After the third region its embedding array is the finished layer of the arrays it found, -/
theorem array2_emb (c : Dev nD) :
    (dat2 V c).arrAt 5 cfg2.N = layerOut (V c main_v37) (V c main_v12) (V c main_v14) :=
  (dat2 V c).arrAt_eq_of_cover 5 _ (fun t _ => flushed2_emb V c t) cover2_emb

/-- and its output array the head function of them. -/
theorem array2_head (c : Dev nD) :
    (dat2 V c).arrAt 6 cfg2.N
      = headOut (V c main_v37) (V c main_v12) (V c main_v14) (V c main_arg7) (V c main_v15) :=
  (dat2 V c).arrAt_eq_of_cover 6 _ (fun t _ => flushed2_head V c t) cover2_head

end Cert.KernelIdeal.Blocks

end
-- ==== Proof.RefStages.lean ====
/-
  The reference's dense stages are the kernel regions' functions.

  Read stage by stage, the reference computes — between its gathers and scatter-adds over the edges — exactly the four
  row-wise functions the kernel's regions compute: the scaled features times the first weight matrix; a finished layer
  scaled again and times the second weight matrix; the finished second layer; and the linear head on it. On the
  extended reals the host's matrix product is the same sum over k as the kernel's, so each pair agrees entry by entry
  with no algebra beyond reading the two sides at an index. The reference computes each degree vector twice; the second
  computation is the first one again, term for term. The kernel keeps each bias as a [1, n] row made by a reshape where
  the reference broadcasts the [n] vector: both read entry k of the vector.
-/
import proofs.«128827_j72043781423170_1_alg».proof.Proof.Gen.ReferenceIdeal.Read
import proofs.«128827_j72043781423170_1_alg».proof.Proof.Region0
import proofs.«128827_j72043781423170_1_alg».proof.Proof.Region1
import proofs.«128827_j72043781423170_1_alg».proof.Proof.Region2
import Idealize.ShloMosaic.Lib.Pipeline.Value
import Idealize.ShloMosaic.Lib.ValueIdx

noncomputable section

open scoped BigOperators

namespace Cert.Bridge

open Idealize.ShloMosaic Idealize.ShloMosaic.ValueIdx
open Cert.ReferenceIdeal Cert.ReferenceIdeal.Read Cert.KernelIdeal.Blocks

/-- An edge-index vector (sources or destinations). -/
abbrev I32s : Type := (⟨S3200000, .i32⟩ : BufTy).Contents (Elt Ideal)

/-- An [n] vector reshaped to a [1, n] row reads, at (0, k), the vector at k. -/
theorem row_of_vector {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_two, Shape.rowMajor_val_one]
    show k.val = 0 * n + k.val
    omega)

/-- The reference's second out-degree factor is its first. -/
theorem outdeg_again (x0 : I32s) : val_main_v41 (F := Ideal) x0 = val_main_v10 (F := Ideal) x0 := rfl

/-- The reference's second in-degree factor is its first. -/
theorem indeg_again (x1 : I32s) : val_main_v56 (F := Ideal) x1 = val_main_v25 (F := Ideal) x1 := rfl

/-- The first dense stage: the features scaled by the out-degree factor, times the first weight matrix. -/
theorem dense_stage (x0 : I32s) (x2 : (⟨S100000x256, .f32⟩ : BufTy).Contents (Elt Ideal))
    (x3 : (⟨S256x16, .f32⟩ : BufTy).Contents (Elt Ideal)) :
    val_main_v13 (F := Ideal) x0 x2 x3 = scaledDense x2 (val_main_v10 (F := Ideal) x0) x3 := by
  funext i
  rw [val_main_v13_apply]
  unfold scaledDense
  refine Finset.sum_congr rfl fun k _ => ?_
  have el : lidx_main_v13 i k = ix2 (i 0) k := funext fun a => Fin.ext (by match a with | ⟨0, _⟩ => rfl | ⟨1, _⟩ => rfl)
  have er : ridx_main_v13 i k = ix2 k (i 1) := funext fun a => Fin.ext (by match a with | ⟨0, _⟩ => rfl | ⟨1, _⟩ => rfl)
  have es : idx_main_v11 (ix2 (i 0) k) = ix2 (i 0) (0 : Fin 1) :=
    funext fun a => Fin.ext (by match a with | ⟨0, _⟩ => rfl | ⟨1, _⟩ => rfl)
  rw [val_main_v12_apply, val_main_v11_apply, el, er, es]
  rfl

/-- The second dense stage: the first layer finished (in-degree factor, bias), scaled by the out-degree factor, times
    the second weight matrix. -/
theorem layer_stage (h : (⟨1, ![16]⟩ : Shape).ShapeCasts ⟨2, ![1, 16]⟩) (x0 x1 : I32s)
    (x2 : (⟨S100000x256, .f32⟩ : BufTy).Contents (Elt Ideal)) (x3 : (⟨S256x16, .f32⟩ : BufTy).Contents (Elt Ideal))
    (x4 : (⟨S16, .f32⟩ : BufTy).Contents (Elt Ideal)) (x5 : (⟨S16x16, .f32⟩ : BufTy).Contents (Elt Ideal)) :
    val_main_v44 (F := Ideal) x0 x1 x2 x3 x4 x5
      = layerThenDense (val_main_v23 (F := Ideal) x0 x1 x2 x3) (val_main_v25 (F := Ideal) x1)
          (shapeCast ⟨2, ![1, 16]⟩ x4 h) (val_main_v10 (F := Ideal) x0) x5 := by
  funext i
  rw [val_main_v44_apply]
  unfold layerThenDense
  refine Finset.sum_congr rfl fun k _ => ?_
  have el : lidx_main_v44 i k = ix2 (i 0) k := funext fun a => Fin.ext (by match a with | ⟨0, _⟩ => rfl | ⟨1, _⟩ => rfl)
  have er : ridx_main_v44 i k = ix2 k (i 1) := funext fun a => Fin.ext (by match a with | ⟨0, _⟩ => rfl | ⟨1, _⟩ => rfl)
  have e26 : idx_main_v26 (ix2 (i 0) k) = ix2 (i 0) (0 : Fin 1) :=
    funext fun a => Fin.ext (by match a with | ⟨0, _⟩ => rfl | ⟨1, _⟩ => rfl)
  have e42 : idx_main_v42 (ix2 (i 0) k) = ix2 (i 0) (0 : Fin 1) :=
    funext fun a => Fin.ext (by match a with | ⟨0, _⟩ => rfl | ⟨1, _⟩ => rfl)
  have e28 : idx_main_v28 (idx_main_v29 (ix2 (i 0) k)) = ix1 k :=
    funext fun a => Fin.ext (by match a with | ⟨0, _⟩ => rfl)
  rw [val_main_v43_apply, val_main_v30_apply, val_main_v27_apply, val_main_v26_apply, val_main_v29_apply,
    val_main_v28_apply, val_main_v42_apply, outdeg_again, el, er, e26, e42, e28, row_of_vector]
  rfl

/-- The embedding: the second layer finished (in-degree factor, bias). -/
theorem embedding_stage (h : (⟨1, ![16]⟩ : Shape).ShapeCasts ⟨2, ![1, 16]⟩) (x0 x1 : I32s)
    (x2 : (⟨S100000x256, .f32⟩ : BufTy).Contents (Elt Ideal)) (x3 : (⟨S256x16, .f32⟩ : BufTy).Contents (Elt Ideal))
    (x4 : (⟨S16, .f32⟩ : BufTy).Contents (Elt Ideal)) (x5 : (⟨S16x16, .f32⟩ : BufTy).Contents (Elt Ideal))
    (x6 : (⟨S16, .f32⟩ : BufTy).Contents (Elt Ideal)) :
    val_main_v61 (F := Ideal) x0 x1 x2 x3 x4 x5 x6
      = layerOut (val_main_v54 (F := Ideal) x0 x1 x2 x3 x4 x5) (val_main_v25 (F := Ideal) x1)
          (shapeCast ⟨2, ![1, 16]⟩ x6 h) := by
  funext i
  obtain ⟨p, q, rfl⟩ : ∃ (p : Fin 100000) (q : Fin 16), i = ix2 p q := ⟨i 0, i 1, eq_ix2 i⟩
  show _ = val_main_v54 (F := Ideal) x0 x1 x2 x3 x4 x5 (ix2 p q) * val_main_v25 (F := Ideal) x1 (ix2 p (0 : Fin 1))
    + shapeCast ⟨2, ![1, 16]⟩ x6 h (ix2 (0 : Fin 1) q)
  have e57 : idx_main_v57 (ix2 p q) = ix2 p (0 : Fin 1) :=
    funext fun a => Fin.ext (by match a with | ⟨0, _⟩ => rfl | ⟨1, _⟩ => rfl)
  have e59 : idx_main_v59 (idx_main_v60 (ix2 p q)) = ix1 q :=
    funext fun a => Fin.ext (by match a with | ⟨0, _⟩ => rfl)
  rw [val_main_v61_apply, val_main_v58_apply, val_main_v57_apply, val_main_v60_apply, val_main_v59_apply,
    indeg_again, e57, e59, row_of_vector]
  rfl

/-- The head: the embedding times the head's weights plus the head's bias. -/
theorem head_stage (h : (⟨1, ![16]⟩ : Shape).ShapeCasts ⟨2, ![1, 16]⟩) (h2 : (⟨1, ![2]⟩ : Shape).ShapeCasts ⟨2, ![1, 2]⟩)
    (x0 x1 : I32s)
    (x2 : (⟨S100000x256, .f32⟩ : BufTy).Contents (Elt Ideal)) (x3 : (⟨S256x16, .f32⟩ : BufTy).Contents (Elt Ideal))
    (x4 : (⟨S16, .f32⟩ : BufTy).Contents (Elt Ideal)) (x5 : (⟨S16x16, .f32⟩ : BufTy).Contents (Elt Ideal))
    (x6 : (⟨S16, .f32⟩ : BufTy).Contents (Elt Ideal)) (x7 : (⟨S16x2, .f32⟩ : BufTy).Contents (Elt Ideal))
    (x8 : (⟨S2, .f32⟩ : BufTy).Contents (Elt Ideal)) :
    val_main_v65 (F := Ideal) x0 x1 x2 x3 x4 x5 x6 x7 x8
      = headOut (val_main_v54 (F := Ideal) x0 x1 x2 x3 x4 x5) (val_main_v25 (F := Ideal) x1)
          (shapeCast ⟨2, ![1, 16]⟩ x6 h) x7 (shapeCast ⟨2, ![1, 2]⟩ x8 h2) := by
  funext i
  obtain ⟨p, q, rfl⟩ : ∃ (p : Fin 100000) (q : Fin 2), i = ix2 p q := ⟨i 0, i 1, eq_ix2 i⟩
  show _ = (∑ k : Fin 16, (val_main_v54 (F := Ideal) x0 x1 x2 x3 x4 x5 (ix2 p k)
        * val_main_v25 (F := Ideal) x1 (ix2 p (0 : Fin 1)) + shapeCast ⟨2, ![1, 16]⟩ x6 h (ix2 (0 : Fin 1) k)) * x7 (ix2 k q))
    + shapeCast ⟨2, ![1, 2]⟩ x8 h2 (ix2 (0 : Fin 1) q)
  have e63 : idx_main_v63 (idx_main_v64 (ix2 p q)) = ix1 q :=
    funext fun a => Fin.ext (by match a with | ⟨0, _⟩ => rfl)
  rw [val_main_v65_apply, val_main_v62_apply, val_main_v64_apply, val_main_v63_apply, e63, row_of_vector,
    embedding_stage h]
  refine congrArg (· + x8 (ix1 q)) ?_
  refine Finset.sum_congr rfl fun k _ => ?_
  have el : lidx_main_v62 (ix2 p q) k = ix2 p k := funext fun a => Fin.ext (by match a with | ⟨0, _⟩ => rfl | ⟨1, _⟩ => rfl)
  have er : ridx_main_v62 (ix2 p q) k = ix2 k q := funext fun a => Fin.ext (by match a with | ⟨0, _⟩ => rfl | ⟨1, _⟩ => rfl)
  rw [el, er]
  rfl

end Cert.Bridge

end
-- ==== Proof.KernelValue.lean ====
/-
  The kernel program's two results as the reference's stages of the arguments.

  Walking the fold through the ten segments: the host stretches before the first region leave the out-degree and
  in-degree factors and the three bias rows, term for term the reference's; the first region leaves the scaled
  features times the first weights (the reference's first matrix product, entry by entry); the gather and scatter-add
  over the edges are the reference's own two operations on that array and the same index vectors; the second region
  leaves the reference's second matrix product; the edges again; and the third region leaves the embedding and the
  head's output. A buffer that a stretch does not write, and an array a region only reads, keeps its contents.
-/
import proofs.«128827_j72043781423170_1_alg».proof.Proof.KernelRun
import proofs.«128827_j72043781423170_1_alg».proof.Proof.RefStages

set_option maxRecDepth 16384

noncomputable section

namespace Cert.Bridge

open Idealize.ShloMosaic Idealize.ShloMosaic.TcCoe Idealize.ShloMosaic.StableHlo Idealize.SL.Sem
open Idealize.ShloMosaic.Pipeline (Dat Cfg Window)
open Cert.KernelIdeal Cert.KernelIdeal.Gen Cert.KernelIdeal.Blocks Cert.ReferenceIdeal.Read

variable (m : (ℓ : Loc nD τ sig) → Buf (Elt Ideal) ℓ) (ρ : Dev nD → PrngReg) (c : Dev nD)

/-- The clamp of the out-degree counts, written with the plain operation builders (the printed stretch routes the same
    three operations through typed references, whose transports are identities). -/
abbrev clampOps0 : List (HloOp τ sig (Elt Ideal)) :=
  [ StableHlo.unary main_cst_1 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.binary main_call0_v1 main_v3 main_v4 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ]
theorem clampOps0_eq : (hostOps0_1 : List (HloOp τ sig (Elt Ideal))) = clampOps0 := rfl

/-- The clamp of the in-degree counts, likewise. -/
abbrev clampOps1 : List (HloOp τ sig (Elt Ideal)) :=
  [ StableHlo.unary main_cst_3 main_call1_v0 (id : (⟨S_, .f32⟩ : BufTy).Contents (Elt Ideal) → (⟨S_, .f32⟩ : BufTy).Contents (Elt Ideal)),
    StableHlo.unary main_call1_v0 main_call1_v1 (broadcastInDim S100000 ![] bcast_S_S100000 : (⟨S_, .f32⟩ : BufTy).Contents (Elt Ideal) → (⟨S100000, .f32⟩ : BufTy).Contents (Elt Ideal)),
    StableHlo.binary main_call1_v1 main_v7 main_v8 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ]
theorem clampOps1_eq : (hostOps0_3 : List (HloOp τ sig (Elt Ideal))) = clampOps1 := rfl

/-! ## Before the first region -/

theorem at5_src : W5 m ρ c (Proc.devRef .tc main_arg0) = (m ((c : Thread nD τ).loc main_arg0)) := by
  dsimp only [V5, W5, W4, W3, W2, W1]; rw [clampOps0_eq, clampOps1_eq]; dsimp only [hostOps0, clampOps0, hostOps0_2, clampOps1, hostOps0_4]; after_results; all_goals rfl
theorem at5_dst : W5 m ρ c (Proc.devRef .tc main_arg1) = (m ((c : Thread nD τ).loc main_arg1)) := by
  dsimp only [V5, W5, W4, W3, W2, W1]; rw [clampOps0_eq, clampOps1_eq]; dsimp only [hostOps0, clampOps0, hostOps0_2, clampOps1, hostOps0_4]; after_results; all_goals rfl
theorem at5_feat : W5 m ρ c (Proc.devRef .tc main_arg2) = (m ((c : Thread nD τ).loc main_arg2)) := by
  dsimp only [V5, W5, W4, W3, W2, W1]; rw [clampOps0_eq, clampOps1_eq]; dsimp only [hostOps0, clampOps0, hostOps0_2, clampOps1, hostOps0_4]; after_results; all_goals rfl
theorem at5_w0 : W5 m ρ c (Proc.devRef .tc main_arg3) = (m ((c : Thread nD τ).loc main_arg3)) := by
  dsimp only [V5, W5, W4, W3, W2, W1]; rw [clampOps0_eq, clampOps1_eq]; dsimp only [hostOps0, clampOps0, hostOps0_2, clampOps1, hostOps0_4]; after_results; all_goals rfl
theorem at5_w1 : W5 m ρ c (Proc.devRef .tc main_arg5) = (m ((c : Thread nD τ).loc main_arg5)) := by
  dsimp only [V5, W5, W4, W3, W2, W1]; rw [clampOps0_eq, clampOps1_eq]; dsimp only [hostOps0, clampOps0, hostOps0_2, clampOps1, hostOps0_4]; after_results; all_goals rfl
theorem at5_wl : W5 m ρ c (Proc.devRef .tc main_arg7) = (m ((c : Thread nD τ).loc main_arg7)) := by
  dsimp only [V5, W5, W4, W3, W2, W1]; rw [clampOps0_eq, clampOps1_eq]; dsimp only [hostOps0, clampOps0, hostOps0_2, clampOps1, hostOps0_4]; after_results; all_goals rfl
/-- The out-degree factor: the reference's. -/
theorem at5_sout : W5 m ρ c (Proc.devRef .tc main_v10) = val_main_v10 (F := Ideal) (m ((c : Thread nD τ).loc main_arg0)) := by
  dsimp only [V5, W5, W4, W3, W2, W1]; rw [clampOps0_eq, clampOps1_eq]; dsimp only [hostOps0, clampOps0, hostOps0_2, clampOps1, hostOps0_4]; after_results; all_goals rfl
/-- The in-degree factor: the reference's. -/
theorem at5_sin : W5 m ρ c (Proc.devRef .tc main_v12) = val_main_v25 (F := Ideal) (m ((c : Thread nD τ).loc main_arg1)) := by
  dsimp only [V5, W5, W4, W3, W2, W1]; rw [clampOps0_eq, clampOps1_eq]; dsimp only [hostOps0, clampOps0, hostOps0_2, clampOps1, hostOps0_4]; after_results; all_goals rfl
/-- The three bias rows: each bias vector reshaped to a row. -/
theorem at5_b0 : W5 m ρ c (Proc.devRef .tc main_v13) = shapeCast S1x16 (m ((c : Thread nD τ).loc main_arg4)) shapeCasts_S16_S1x16 := by
  dsimp only [V5, W5, W4, W3, W2, W1]; rw [clampOps0_eq, clampOps1_eq]; dsimp only [hostOps0, clampOps0, hostOps0_2, clampOps1, hostOps0_4]; after_results; all_goals rfl
theorem at5_b1 : W5 m ρ c (Proc.devRef .tc main_v14) = shapeCast S1x16 (m ((c : Thread nD τ).loc main_arg6)) shapeCasts_S16_S1x16 := by
  dsimp only [V5, W5, W4, W3, W2, W1]; rw [clampOps0_eq, clampOps1_eq]; dsimp only [hostOps0, clampOps0, hostOps0_2, clampOps1, hostOps0_4]; after_results; all_goals rfl
theorem at5_bl : W5 m ρ c (Proc.devRef .tc main_v15) = shapeCast S1x2 (m ((c : Thread nD τ).loc main_arg8)) shapeCasts_S2_S1x2 := by
  dsimp only [V5, W5, W4, W3, W2, W1]; rw [clampOps0_eq, clampOps1_eq]; dsimp only [hostOps0, clampOps0, hostOps0_2, clampOps1, hostOps0_4]; after_results; all_goals rfl

/-! ## The first region, and the first pass over the edges -/

/-- The first region's result is the reference's first matrix product. -/
theorem at6_dense : W6 m ρ c (Proc.devRef .tc main_v16)
    = val_main_v13 (F := Ideal) (m ((c : Thread nD τ).loc main_arg0)) (m ((c : Thread nD τ).loc main_arg2)) (m ((c : Thread nD τ).loc main_arg3)) := by
  refine (W6_arr m ρ c 3).trans ((array0 (V5 m ρ) c).trans ?_)
  rw [dense_stage]
  show scaledDense (W5 m ρ c (Proc.devRef .tc main_arg2)) (W5 m ρ c (Proc.devRef .tc main_v10)) (W5 m ρ c (Proc.devRef .tc main_arg3)) = _
  rw [at5_feat, at5_sout, at5_w0]

theorem at6_src : W6 m ρ c (Proc.devRef .tc main_arg0) = (m ((c : Thread nD τ).loc main_arg0)) :=
  (W6_of_ne m ρ c main_arg0 (by decide)).trans (at5_src m ρ c)
theorem at6_dst : W6 m ρ c (Proc.devRef .tc main_arg1) = (m ((c : Thread nD τ).loc main_arg1)) :=
  (W6_of_ne m ρ c main_arg1 (by decide)).trans (at5_dst m ρ c)
theorem at6_w1 : W6 m ρ c (Proc.devRef .tc main_arg5) = (m ((c : Thread nD τ).loc main_arg5)) :=
  (W6_of_ne m ρ c main_arg5 (by decide)).trans (at5_w1 m ρ c)
theorem at6_wl : W6 m ρ c (Proc.devRef .tc main_arg7) = (m ((c : Thread nD τ).loc main_arg7)) :=
  (W6_of_ne m ρ c main_arg7 (by decide)).trans (at5_wl m ρ c)
theorem at6_sout : W6 m ρ c (Proc.devRef .tc main_v10) = val_main_v10 (F := Ideal) (m ((c : Thread nD τ).loc main_arg0)) :=
  (W6_arr m ρ c 1).trans ((((dat0 (V5 m ρ) c).arrAt_in 1 rfl _).trans (A_eq0 (V5 m ρ) c 1)).trans (at5_sout m ρ c))
theorem at6_sin : W6 m ρ c (Proc.devRef .tc main_v12) = val_main_v25 (F := Ideal) (m ((c : Thread nD τ).loc main_arg1)) :=
  (W6_of_ne m ρ c main_v12 (by decide)).trans (at5_sin m ρ c)
theorem at6_b0 : W6 m ρ c (Proc.devRef .tc main_v13) = shapeCast S1x16 (m ((c : Thread nD τ).loc main_arg4)) shapeCasts_S16_S1x16 :=
  (W6_of_ne m ρ c main_v13 (by decide)).trans (at5_b0 m ρ c)
theorem at6_b1 : W6 m ρ c (Proc.devRef .tc main_v14) = shapeCast S1x16 (m ((c : Thread nD τ).loc main_arg6)) shapeCasts_S16_S1x16 :=
  (W6_of_ne m ρ c main_v14 (by decide)).trans (at5_b1 m ρ c)
theorem at6_bl : W6 m ρ c (Proc.devRef .tc main_v15) = shapeCast S1x2 (m ((c : Thread nD τ).loc main_arg8)) shapeCasts_S2_S1x2 :=
  (W6_of_ne m ρ c main_v15 (by decide)).trans (at5_bl m ρ c)

/-- The first aggregation over the edges: the reference's gather of the product's rows at the sources and scatter-add
    at the destinations. -/
theorem at7_agg : W7 m ρ c (Proc.devRef .tc main_v26)
    = val_main_v23 (F := Ideal) (m ((c : Thread nD τ).loc main_arg0)) (m ((c : Thread nD τ).loc main_arg1)) (m ((c : Thread nD τ).loc main_arg2)) (m ((c : Thread nD τ).loc main_arg3)) := by
  dsimp only [V5, V7, V9, W9, W7, W5, W4, W3, W2, W1, hostOps0, hostOps0_1, hostOps0_2, hostOps0_3, hostOps0_4, hostOps1, hostOps2]; after_results
  rw [at6_dense, at6_src, at6_dst]
  rfl
theorem at7_src : W7 m ρ c (Proc.devRef .tc main_arg0) = (m ((c : Thread nD τ).loc main_arg0)) := by
  dsimp only [V5, V7, V9, W9, W7, W5, W4, W3, W2, W1, hostOps0, hostOps0_1, hostOps0_2, hostOps0_3, hostOps0_4, hostOps1, hostOps2]; after_results; exact at6_src m ρ c
theorem at7_dst : W7 m ρ c (Proc.devRef .tc main_arg1) = (m ((c : Thread nD τ).loc main_arg1)) := by
  dsimp only [V5, V7, V9, W9, W7, W5, W4, W3, W2, W1, hostOps0, hostOps0_1, hostOps0_2, hostOps0_3, hostOps0_4, hostOps1, hostOps2]; after_results; exact at6_dst m ρ c
theorem at7_w1 : W7 m ρ c (Proc.devRef .tc main_arg5) = (m ((c : Thread nD τ).loc main_arg5)) := by
  dsimp only [V5, V7, V9, W9, W7, W5, W4, W3, W2, W1, hostOps0, hostOps0_1, hostOps0_2, hostOps0_3, hostOps0_4, hostOps1, hostOps2]; after_results; exact at6_w1 m ρ c
theorem at7_wl : W7 m ρ c (Proc.devRef .tc main_arg7) = (m ((c : Thread nD τ).loc main_arg7)) := by
  dsimp only [V5, V7, V9, W9, W7, W5, W4, W3, W2, W1, hostOps0, hostOps0_1, hostOps0_2, hostOps0_3, hostOps0_4, hostOps1, hostOps2]; after_results; exact at6_wl m ρ c
theorem at7_sout : W7 m ρ c (Proc.devRef .tc main_v10) = val_main_v10 (F := Ideal) (m ((c : Thread nD τ).loc main_arg0)) := by
  dsimp only [V5, V7, V9, W9, W7, W5, W4, W3, W2, W1, hostOps0, hostOps0_1, hostOps0_2, hostOps0_3, hostOps0_4, hostOps1, hostOps2]; after_results; exact at6_sout m ρ c
theorem at7_sin : W7 m ρ c (Proc.devRef .tc main_v12) = val_main_v25 (F := Ideal) (m ((c : Thread nD τ).loc main_arg1)) := by
  dsimp only [V5, V7, V9, W9, W7, W5, W4, W3, W2, W1, hostOps0, hostOps0_1, hostOps0_2, hostOps0_3, hostOps0_4, hostOps1, hostOps2]; after_results; exact at6_sin m ρ c
theorem at7_b0 : W7 m ρ c (Proc.devRef .tc main_v13) = shapeCast S1x16 (m ((c : Thread nD τ).loc main_arg4)) shapeCasts_S16_S1x16 := by
  dsimp only [V5, V7, V9, W9, W7, W5, W4, W3, W2, W1, hostOps0, hostOps0_1, hostOps0_2, hostOps0_3, hostOps0_4, hostOps1, hostOps2]; after_results; exact at6_b0 m ρ c
theorem at7_b1 : W7 m ρ c (Proc.devRef .tc main_v14) = shapeCast S1x16 (m ((c : Thread nD τ).loc main_arg6)) shapeCasts_S16_S1x16 := by
  dsimp only [V5, V7, V9, W9, W7, W5, W4, W3, W2, W1, hostOps0, hostOps0_1, hostOps0_2, hostOps0_3, hostOps0_4, hostOps1, hostOps2]; after_results; exact at6_b1 m ρ c
theorem at7_bl : W7 m ρ c (Proc.devRef .tc main_v15) = shapeCast S1x2 (m ((c : Thread nD τ).loc main_arg8)) shapeCasts_S2_S1x2 := by
  dsimp only [V5, V7, V9, W9, W7, W5, W4, W3, W2, W1, hostOps0, hostOps0_1, hostOps0_2, hostOps0_3, hostOps0_4, hostOps1, hostOps2]; after_results; exact at6_bl m ρ c

/-! ## The second region, and the second pass over the edges -/

/-- The second region's result is the reference's second matrix product. -/
theorem at8_layer : W8 m ρ c (Proc.devRef .tc main_v27)
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 5).trans ((array1 (V7 m ρ) c).trans ?_)
  rw [layer_stage shapeCasts_S16_S1x16]
  show layerThenDense (W7 m ρ c (Proc.devRef .tc main_v26)) (W7 m ρ c (Proc.devRef .tc main_v12))
    (W7 m ρ c (Proc.devRef .tc main_v13)) (W7 m ρ c (Proc.devRef .tc main_v10)) (W7 m ρ c (Proc.devRef .tc main_arg5)) = _
  rw [at7_agg, at7_sin, at7_b0, at7_sout, at7_w1]

theorem at8_src : W8 m ρ c (Proc.devRef .tc main_arg0) = (m ((c : Thread nD τ).loc main_arg0)) :=
  (W8_of_ne m ρ c main_arg0 (by decide)).trans (at7_src m ρ c)
theorem at8_dst : W8 m ρ c (Proc.devRef .tc main_arg1) = (m ((c : Thread nD τ).loc main_arg1)) :=
  (W8_of_ne m ρ c main_arg1 (by decide)).trans (at7_dst m ρ c)
theorem at8_wl : W8 m ρ c (Proc.devRef .tc main_arg7) = (m ((c : Thread nD τ).loc main_arg7)) :=
  (W8_of_ne m ρ c main_arg7 (by decide)).trans (at7_wl m ρ c)
theorem at8_sin : W8 m ρ c (Proc.devRef .tc main_v12) = val_main_v25 (F := Ideal) (m ((c : Thread nD τ).loc main_arg1)) :=
  (W8_arr m ρ c 1).trans ((((dat1 (V7 m ρ) c).arrAt_in 1 rfl _).trans (A_eq1 (V7 m ρ) c 1)).trans (at7_sin m ρ c))
theorem at8_b1 : W8 m ρ c (Proc.devRef .tc main_v14) = shapeCast S1x16 (m ((c : Thread nD τ).loc main_arg6)) shapeCasts_S16_S1x16 :=
  (W8_of_ne m ρ c main_v14 (by decide)).trans (at7_b1 m ρ c)
theorem at8_bl : W8 m ρ c (Proc.devRef .tc main_v15) = shapeCast S1x2 (m ((c : Thread nD τ).loc main_arg8)) shapeCasts_S2_S1x2 :=
  (W8_of_ne m ρ c main_v15 (by decide)).trans (at7_bl m ρ c)

set_option maxHeartbeats 2000000 in
/-- The second aggregation over the edges: the reference's. -/
theorem at9_agg : W9 m ρ c (Proc.devRef .tc main_v37)
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [V5, V7, V9, W9, W7, W5, W4, W3, W2, W1, hostOps0, hostOps0_1, hostOps0_2, hostOps0_3, hostOps0_4, hostOps1, hostOps2]; after_results
  rw [at8_layer, at8_src, at8_dst]
  rfl
theorem at9_wl : W9 m ρ c (Proc.devRef .tc main_arg7) = (m ((c : Thread nD τ).loc main_arg7)) := by
  dsimp only [V5, V7, V9, W9, W7, W5, W4, W3, W2, W1, hostOps0, hostOps0_1, hostOps0_2, hostOps0_3, hostOps0_4, hostOps1, hostOps2]; after_results; exact at8_wl m ρ c
theorem at9_sin : W9 m ρ c (Proc.devRef .tc main_v12) = val_main_v25 (F := Ideal) (m ((c : Thread nD τ).loc main_arg1)) := by
  dsimp only [V5, V7, V9, W9, W7, W5, W4, W3, W2, W1, hostOps0, hostOps0_1, hostOps0_2, hostOps0_3, hostOps0_4, hostOps1, hostOps2]; after_results; exact at8_sin m ρ c
theorem at9_b1 : W9 m ρ c (Proc.devRef .tc main_v14) = shapeCast S1x16 (m ((c : Thread nD τ).loc main_arg6)) shapeCasts_S16_S1x16 := by
  dsimp only [V5, V7, V9, W9, W7, W5, W4, W3, W2, W1, hostOps0, hostOps0_1, hostOps0_2, hostOps0_3, hostOps0_4, hostOps1, hostOps2]; after_results; exact at8_b1 m ρ c
theorem at9_bl : W9 m ρ c (Proc.devRef .tc main_v15) = shapeCast S1x2 (m ((c : Thread nD τ).loc main_arg8)) shapeCasts_S2_S1x2 := by
  dsimp only [V5, V7, V9, W9, W7, W5, W4, W3, W2, W1, hostOps0, hostOps0_1, hostOps0_2, hostOps0_3, hostOps0_4, hostOps1, hostOps2]; after_results; exact at8_bl m ρ c

/-! ## The third region: the two results -/

/-- The embedding the kernel returns is the reference's. -/
theorem result_embedding : W10 m ρ c (Proc.devRef .tc main_v38_0)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 5).trans ((array2_emb (V9 m ρ) c).trans ?_)
  rw [embedding_stage shapeCasts_S16_S1x16]
  show layerOut (W9 m ρ c (Proc.devRef .tc main_v37)) (W9 m ρ c (Proc.devRef .tc main_v12))
    (W9 m ρ c (Proc.devRef .tc main_v14)) = _
  rw [at9_agg, at9_sin, at9_b1]

/-- The head's output the kernel returns is the reference's. -/
theorem result_head : W10 m ρ c (Proc.devRef .tc main_v38_1)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 6).trans ((array2_head (V9 m ρ) c).trans ?_)
  rw [head_stage shapeCasts_S16_S1x16 shapeCasts_S2_S1x2]
  show headOut (W9 m ρ c (Proc.devRef .tc main_v37)) (W9 m ρ c (Proc.devRef .tc main_v12))
    (W9 m ρ c (Proc.devRef .tc main_v14)) (W9 m ρ c (Proc.devRef .tc main_arg7)) (W9 m ρ c (Proc.devRef .tc main_v15)) = _
  rw [at9_agg, at9_sin, at9_b1, at9_wl, at9_bl]

end Cert.Bridge

end
-- ==== Proof.lean ====
/-
  A two-layer graph convolution with a linear head — degree-normalised aggregation over the edges of a graph — as three
  row-blocked kernel regions with the edge gathers and scatter-adds between them, against the same network written
  with whole-array operations.

  On the extended reals the two programs are the same composition, stage for stage. The degree factors and bias rows
  are made by the same host operations; each region's block t is rows 5000·t … 5000·t + 4999 of a row-wise function,
  so the region's result is that function of whole arrays, and that function is, entry by entry, the reference's
  matrix product with its scalings and bias (a matrix product accumulating from zero is the plain sum over the
  contracted index on both sides; the kernel's changes of float format are the identity); the gathers and
  scatter-adds are the same operations applied to equal arrays. No algebraic law is needed and the precondition is
  never opened.

  The frames: the two kernel programs' are the generated ones; the reference's is its generated run with the results
  dropped. The idealization rewrote nothing, so there is nothing to preserve.
-/
import proofs.«128827_j72043781423170_1_alg».proof.Defs
import proofs.«128827_j72043781423170_1_alg».proof.Proof.Gen.Kernel
import proofs.«128827_j72043781423170_1_alg».proof.Proof.Gen.Kernel.Skeleton
import proofs.«128827_j72043781423170_1_alg».proof.Proof.Gen.Kernel.Launch
import proofs.«128827_j72043781423170_1_alg».proof.Proof.Gen.Kernel.Points
import proofs.«128827_j72043781423170_1_alg».proof.Proof.Gen.Kernel.Frame
import proofs.«128827_j72043781423170_1_alg».proof.Proof.Gen.KernelIdeal
import proofs.«128827_j72043781423170_1_alg».proof.Proof.Gen.KernelIdeal.Skeleton
import proofs.«128827_j72043781423170_1_alg».proof.Proof.Gen.KernelIdeal.Launch
import proofs.«128827_j72043781423170_1_alg».proof.Proof.Gen.KernelIdeal.Points
import proofs.«128827_j72043781423170_1_alg».proof.Proof.Gen.KernelIdeal.Frame
import proofs.«128827_j72043781423170_1_alg».proof.Proof.Gen.ReferenceIdeal
import proofs.«128827_j72043781423170_1_alg».proof.Proof.Gen.Pre_finite_inputs
import proofs.«128827_j72043781423170_1_alg».proof.Proof.Gen.ReferenceIdeal.Run
import proofs.«128827_j72043781423170_1_alg».proof.Proof.Gen.ReferenceIdeal.Read
import proofs.«128827_j72043781423170_1_alg».proof.Proof.KernelRun
import proofs.«128827_j72043781423170_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

section Results

open Cert.KernelIdeal Cert.KernelIdeal.Gen

/-- From memories that agree on the nine arguments both programs end with the same embedding and the same head
    output: the kernel's two result arrays are the reference's two stages of the arguments. -/
theorem algebraic : Cert.algebraic_KernelIdeal_ReferenceIdeal := by
  intro m ρ m' ρ' _ hagree
  refine ⟨fun c => W10 m ρ c (Proc.devRef .tc main_v38_0), fun c => W10 m ρ c (Proc.devRef .tc main_v38_1), ?_, ?_⟩
  · refine (θ_run Cert.KernelIdeal.defs _ _).mono (fun r h c => ?_) (Cert.KernelIdeal.Whole.run_buffers (F := Ideal) m ρ)
    exact ⟨h c _ (mem_uc main_v38_0 (by decide)), h c _ (mem_uc main_v38_1 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8⟩ := hagree c
      rw [Cert.ReferenceIdeal.Read.val_main_v61_eq, h0, h1, h2, h3, h4, h5, h6]
      exact (Cert.Bridge.result_embedding m ρ c).symm
    · obtain ⟨h0, h1, h2, h3, h4, h5, h6, h7, h8⟩ := hagree c
      rw [Cert.ReferenceIdeal.Read.val_main_v65_eq, h0, h1, h2, h3, h4, h5, h6, h7, h8]
      exact (Cert.Bridge.result_head m ρ c).symm

end Results

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
